-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S1024 : Shape := ⟨1, ![1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x256 .f32) (main_arg1 : FVec F S1024x256 .f32) (main_arg2 : FVec F S1024 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16384x256 : Shape := ⟨2, ![16384, 256]⟩
abbrev S1024x256 : Shape := ⟨2, ![1024, 256]⟩
abbrev S1024 : Shape := ⟨1, ![1024]⟩
abbrev S_ : Shape := ⟨0, ![]⟩
abbrev S1x1024 : Shape := ⟨2, ![1, 1024]⟩
abbrev S16384x1024 : Shape := ⟨2, ![16384, 1024]⟩
abbrev S1024x1024 : Shape := ⟨2, ![1024, 1024]⟩
abbrev S1024x1 : Shape := ⟨2, ![1024, 1]⟩

abbrev nBuf : Space → Nat
  | .hbm => 12
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S1024x256, .bf16⟩
  | .hbm, ⟨4, _⟩ => ⟨S1024x256, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  reducesTo_S1024x256_S1024_d1 : S1024x256.ReducesTo [1] S1024
  h_S_ : 0 < S_.numel
  bcast_S1024_S1x1024_1 : S1024.BroadcastsInDim S1x1024 (![1] : Fin 1 → Fin S1x1024.rank)
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1024x256_S1024_d1 : S1024x256.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x256_S1024x256_S16384x1024_1_1_0_0_n_n_wf : DotDims.WF S16384x256 S1024x256 S16384x1024 [1] [1] [0] [0] [] []

variable [Facts₀]

def dot_S16384x256_S1024x256_S16384x1024_1_1_0_0_n_n : DotDims S16384x256 S1024x256 S16384x1024 where
  lhsContracting := [1]
  rhsContracting := [1]
  lhsNonContracting := [0]
  rhsNonContracting := [0]
  lhsBatch := []
  rhsBatch := []
  wf := dot_S16384x256_S1024x256_S16384x1024_1_1_0_0_n_n_wf

class Facts : Prop extends Facts₀ where

variable [Facts]
-- ==== Proof.Spec.lean ====
/-
  The radial-basis layer as a function of its three arrays, written two ways.

  For a row `b` of the points `X` and a centre `q` of `C` with width `β q`, the layer's value is
  `exp (-β q · ‖X b − C q‖²)`, the squared distance expanded as `‖X b‖² + ‖C q‖² − 2 ⟨X b, C q⟩`.

  * the FACTORED form multiplies the expanded distance by `-β q` once:
      `exp (-β q · ((‖X b‖² + ‖C q‖²) − 2 · ⟨X b, C q⟩))`;
  * the DISTRIBUTED form multiplies each of the three terms by `-β q` first:
      `exp ((-β q · ‖X b‖² + -β q · ‖C q‖²) − (2 · -β q) · ⟨X b, C q⟩)`.

  The two agree by distributivity of the product over the sum and the difference. On the extended reals that law
  fails at the infinities, so it is proved here for arrays all of whose entries are real numbers: the squared lengths
  and the inner product are then finite sums of real products, hence real, and the law is the ring identity
  `a · ((s + c) − 2 w) = (a s + a c) − (2 a) w` of the reals.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The float `2.0`. -/
abbrev two : EReal := Ideal.ofBits .f32 0x40000000#32

/-- The float `2.0` denotes the real number 2. -/
theorem two_eq : two = ((2 : ℝ) : EReal) := by
  simp [two, Ideal.ofBits, Ideal.ieee, -EReal.coe_mul]; norm_num

/-- The squared length of row `r` of an `[n, d]` array: the sum of its squared entries, started from the zero float. -/
def sqLen {n d : ℕ} (A : (⟨2, ![n, d]⟩ : Shape).Idx → EReal) (r : Fin n) : EReal :=
  Ideal.ofBits .f32 0x00000000#32 + ∑ l : Fin d, A (ix2 r l) * A (ix2 r l)

/-- The inner product of row `b` of `X` with row `q` of `C`. -/
def inner {n k d : ℕ} (X : (⟨2, ![n, d]⟩ : Shape).Idx → EReal) (C : (⟨2, ![k, d]⟩ : Shape).Idx → EReal)
    (b : Fin n) (q : Fin k) : EReal :=
  ∑ l : Fin d, X (ix2 b l) * C (ix2 q l)

/-- The layer's value at `(b, q)`, factored: `-β q` times the expanded squared distance, under the exponential. -/
def factored {n k d : ℕ} (X : (⟨2, ![n, d]⟩ : Shape).Idx → EReal) (C : (⟨2, ![k, d]⟩ : Shape).Idx → EReal)
    (B : (⟨1, ![k]⟩ : Shape).Idx → EReal) (b : Fin n) (q : Fin k) : EReal :=
  Ideal.exp (-(B (ix1 q)) * ((sqLen X b + sqLen C q) - two * inner X C b q))

/-- The layer's value at `(b, q)`, distributed: each term of the expanded squared distance times `-β q`. -/
def distributed {n k d : ℕ} (X : (⟨2, ![n, d]⟩ : Shape).Idx → EReal) (C : (⟨2, ![k, d]⟩ : Shape).Idx → EReal)
    (B : (⟨1, ![k]⟩ : Shape).Idx → EReal) (b : Fin n) (q : Fin k) : EReal :=
  Ideal.exp ((-(B (ix1 q)) * sqLen X b + -(B (ix1 q)) * sqLen C q) - (two * -(B (ix1 q))) * inner X C b q)

/-- An extended real that is a real number. -/
def IsReal (x : EReal) : Prop := ∃ r : ℝ, x = (r : EReal)

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem isReal_sum {ι : Type*} [Fintype ι] (f : ι → EReal) (hf : ∀ i, IsReal (f i)) : IsReal (∑ i, f i) := by
  choose g hg using hf
  exact ⟨∑ i, g i, by rw [coe_sum]; exact Finset.sum_congr rfl fun i _ => hg i⟩

/-- A product of real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The squared length of a row of real numbers is a real number. -/
theorem isReal_sqLen {n d : ℕ} (A : (⟨2, ![n, d]⟩ : Shape).Idx → EReal) (hA : ∀ i, IsReal (A i)) (r : Fin n) :
    IsReal (sqLen A r) := by
  obtain ⟨s, hs⟩ := isReal_sum (fun l : Fin d => A (ix2 r l) * A (ix2 r l)) fun l => isReal_mul (hA _) (hA _)
  refine ⟨s, ?_⟩
  unfold sqLen
  rw [Ideal.ofBits_zero_f32, zero_add]
  exact hs

/-- The inner product of two rows of real numbers is a real number. -/
theorem isReal_inner {n k d : ℕ} (X : (⟨2, ![n, d]⟩ : Shape).Idx → EReal) (C : (⟨2, ![k, d]⟩ : Shape).Idx → EReal)
    (hX : ∀ i, IsReal (X i)) (hC : ∀ i, IsReal (C i)) (b : Fin n) (q : Fin k) : IsReal (inner X C b q) :=
  isReal_sum (fun l : Fin d => X (ix2 b l) * C (ix2 q l)) fun l => isReal_mul (hX _) (hC _)

/-- On arrays of real numbers the distributed form is the factored form: distributivity in the reals. -/
theorem distributed_eq_factored {n k d : ℕ} (X : (⟨2, ![n, d]⟩ : Shape).Idx → EReal) (C : (⟨2, ![k, d]⟩ : Shape).Idx → EReal)
    (B : (⟨1, ![k]⟩ : Shape).Idx → EReal) (hX : ∀ i, IsReal (X i)) (hC : ∀ i, IsReal (C i)) (hB : ∀ i, IsReal (B i))
    (b : Fin n) (q : Fin k) : distributed X C B b q = factored X C B b q := by
  obtain ⟨s, hs⟩ := isReal_sqLen X hX b
  obtain ⟨c, hc⟩ := isReal_sqLen C hC q
  obtain ⟨w, hw⟩ := isReal_inner X C hX hC b q
  obtain ⟨β, hβ⟩ := hB (ix1 q)
  unfold distributed factored
  rw [hs, hc, hw, hβ, two_eq]
  refine congrArg Ideal.exp ?_
  simp only [← EReal.coe_neg, ← EReal.coe_mul, ← EReal.coe_add, ← EReal.coe_sub]
  refine congrArg _ ?_
  ring

end Cert.Rbf

end
-- ==== Proof.LibCoords.lean ====
/-
  Reading an array at coordinates.

  An index of a rank-2 array is determined by its two coordinates, and of a rank-1 array by its one coordinate.
  `at2 f a b` and `at1 f a` name the value of `f` at the index with those coordinates, and `at2_eq` / `at1_eq` say that
  `f` at ANY index is `at2 f` / `at1 f` of that index's coordinates. Rewriting with them turns an equation between values
  read at two differently written indices into an equation between their coordinates, which are numbers below literal
  bounds and compare by evaluation.
-/
import Idealize.ShloMosaic.Lib.ValueIdx

namespace Cert.Lib

open Idealize.ShloMosaic Idealize.ShloMosaic.ValueIdx

variable {α : Type}

/-- The value of a rank-2 array at the index with coordinates `a`, `b`. -/
def at2 {n0 n1 : ℕ} (f : (⟨2, ![n0, n1]⟩ : Shape).Idx → α) (a : Fin n0) (b : Fin n1) : α := f (ix2 a b)
/-- The value of a rank-1 array at the index with coordinate `a`. -/
def at1 {n : ℕ} (f : (⟨1, ![n]⟩ : Shape).Idx → α) (a : Fin n) : α := f (ix1 a)
/-- A rank-2 array at an index is the array at that index's two coordinates. -/
theorem at2_eq {n0 n1 : ℕ} (f : (⟨2, ![n0, n1]⟩ : Shape).Idx → α) (i : (⟨2, ![n0, n1]⟩ : Shape).Idx) :
    f i = at2 f (i 0) (i 1) := congrArg f (eq_ix2 i)
/-- A rank-1 array at an index is the array at that index's coordinate. -/
theorem at1_eq {n : ℕ} (f : (⟨1, ![n]⟩ : Shape).Idx → α) (i : (⟨1, ![n]⟩ : Shape).Idx) :
    f i = at1 f (i 0) := congrArg f (eq_ix1 i)

end Cert.Lib
-- ==== Proof.RefValue.lean ====
/-
  The reference computes the factored form of the layer.

  Its last stage, read at an index `i` of the `[16384, 1024]` result, is the exponential of `-β (i 1)` times
  `(‖X (i 0)‖² + ‖C (i 1)‖²) − 2 · ⟨X (i 0), C (i 1)⟩`: the two squared lengths are the host's row sums of the squared
  arrays, repeated along the other axis; the inner product is the host's contraction of `X` and `C` over their second
  axes; the widths are negated as a `[1, 1024]` row and repeated down the rows.
-/
import proofs.«154073_j44521630990797_2_alg».proof.Proof.Gen.ReferenceIdeal.Read
import proofs.«154073_j44521630990797_2_alg».proof.Proof.Spec
import proofs.«154073_j44521630990797_2_alg».proof.Proof.LibCoords

noncomputable section

namespace Cert.Rbf

open Idealize.ShloMosaic Idealize.ShloMosaic.ValueIdx Cert.ReferenceIdeal Cert.ReferenceIdeal.Read Cert.Lib

/-- The reference's result, index by index, is the factored form of the layer at the index's row and column. -/
theorem reference_eq (X : FVec Ideal S16384x256 .f32) (C : FVec Ideal S1024x256 .f32) (B : FVec Ideal S1024 .f32) :
    val_main_v17 (F := Ideal) X C B = fun i => factored X C B (i 0) (i 1) := by
  funext i
  rw [val_main_v17_apply, val_main_v16_apply, val_main_v15_apply, val_main_v14_apply, val_main_v13_apply,
    val_main_v12_apply, val_main_v9_apply, val_main_v7_apply, val_main_v2_apply, val_main_v1_apply,
    val_main_v8_apply, val_main_v6_apply, val_main_v4_apply, val_main_v11_apply, val_main_v10_apply,
    val_main_cst_1_apply, val_main_v5_apply]
  simp only [val_main_v0_apply, val_main_v3_apply, val_main_cst_apply, val_main_cst_0_apply,
    Ideal.hostUnary_exp_def, Ideal.mulf_def, Ideal.subf_def, Ideal.addf_def, Ideal.ofBits_def]
  simp only [at2_eq X, at2_eq C, at1_eq B]
  rfl

end Cert.Rbf

end
-- ==== Proof.HostPrefix.lean ====
/-
  What the kernel's region finds in the three arrays the host operations before it compute.

  * The centres as bf16 are the centres: a change of float format is the identity on the extended reals.
  * The row of negated widths holds `-β q` at column `q`.
  * The row `cb` holds `-β q · ‖C q‖²` at column `q`: the negated widths times the host's row sums of the squared
    centres, both laid out as `[1, 1024]` rows.
-/
import proofs.«154073_j44521630990797_2_alg».proof.Proof.Gen.KernelIdeal.Frame
import proofs.«154073_j44521630990797_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Rbf

open Idealize.ShloMosaic Idealize.ShloMosaic.ValueIdx Idealize.ShloMosaic.TcCoe Idealize.SL.Sem
open Idealize.ShloMosaic.StableHlo Cert.KernelIdeal Cert.KernelIdeal.Gen

/-- A `[1024]` vector laid out as a `[1, 1024]` row reads, at `(u, q)`, the vector at `q`. -/
theorem bcast_row_apply {α : Type} (v : S1024.Idx → α) (u : Fin 1) (q : Fin 1024) :
    broadcastInDim S1x1024 ![1] bcast_S1024_S1x1024_1 v (ix2 u q) = v (ix1 q) :=
  broadcastInDim_apply _ bcast_S1024_S1x1024_1 v (ix2 u q) (ix1 q) (fun a => match a with
    | ⟨0, _⟩ => by show q.val = if (1024 : Nat) = 1 then 0 else q.val; rw [if_neg (by decide)])

/-- The host's sum of a `[1024, 256]` array along its second axis is, at `q`, the initial value plus the sum of row `q`. -/
theorem host_rowsum_apply (y : FVec Ideal S1024x256 .f32) (z : FVec Ideal S_ .f32) (q : Fin 1024) :
    Host.reduceAdd y z reducesTo_S1024x256_S1024_d1 h_S_ (ix1 q) = z ix0 + ∑ l : Fin 256, y (ix2 q l) := by
  simp only [Host.reduceAdd, Ideal.hostReduceAdd_def]
  rw [Ideal.hostReduceAdd_single reducesTo_S1024x256_S1024_d1 (by decide)]
  refine congrArg₂ (· + ·) (congrArg z (funext fun a => a.elim0)) (Finset.sum_congr rfl fun k _ => ?_)
  exact congrArg y (funext fun a => Fin.ext (by match a with | ⟨0, _⟩ => rfl | ⟨1, _⟩ => rfl))

variable (m : (ℓ : Loc nD τ sig) → Buf (Elt Ideal) ℓ)

/-- The points the kernel is launched with, as an array of extended reals. -/
abbrev argX (c : Dev nD) : S16384x256.Idx → EReal := m ((c : Thread nD τ).loc main_arg0)
/-- The centres the kernel is launched with. -/
abbrev argC (c : Dev nD) : S1024x256.Idx → EReal := m ((c : Thread nD τ).loc main_arg1)
/-- The widths the kernel is launched with. -/
abbrev argB (c : Dev nD) : S1024.Idx → EReal := m ((c : Thread nD τ).loc main_arg2)

/-- The centres the region finds, in bf16, are the argument's centres. -/
theorem entry_centres (c : Dev nD) :
    (V m c main_v0 : S1024x256.Idx → EReal) = argC m c := by
  dsimp only [Gen.V, Gen.hostOps0]; after_results; try rfl

/-- The row of negated widths the region finds holds `-β q` at column `q`. -/
theorem entry_negwidth (c : Dev nD) (u : Fin 1) (q : Fin 1024) :
    (V m c main_v4 : S1x1024.Idx → EReal) (ix2 u q)
      = -(argB m c (ix1 q)) := by
  have e : (V m c main_v4 : S1x1024.Idx → EReal)
      = broadcastInDim S1x1024 ![1] bcast_S1024_S1x1024_1 (Host.negf (F := Ideal) (φ := .f32) (argB m c)) := by
    dsimp only [Gen.V, Gen.hostOps0]; after_results; try rfl
  rw [e, bcast_row_apply]
  rfl

/-- The row `cb` the region finds holds `-β q · ‖C q‖²` at column `q`. -/
theorem entry_cb (c : Dev nD) (u : Fin 1) (q : Fin 1024) :
    (V m c main_v6 : S1x1024.Idx → EReal) (ix2 u q)
      = -(argB m c (ix1 q)) * sqLen (argC m c) q := by
  have e : (V m c main_v6 : S1x1024.Idx → EReal)
      = mulf (broadcastInDim S1x1024 ![1] bcast_S1024_S1x1024_1 (Host.negf (F := Ideal) (φ := .f32) (argB m c)))
          (broadcastInDim S1x1024 ![1] bcast_S1024_S1x1024_1
            (Host.reduceAdd (F := Ideal) (φ := .f32) (mulf (F := Ideal) (φ := .f32) (argC m c) (argC m c))
              (constant (F := Ideal) S_ .f32 0x00000000#32) reducesTo_S1024x256_S1024_d1 h_S_)) := by
    dsimp only [Gen.V, Gen.hostOps0]; after_results; try rfl
  rw [e, mulf_apply, bcast_row_apply, bcast_row_apply, host_rowsum_apply]
  rfl

end Cert.Rbf

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.KerPayload.lean ====
/-
  The kernel body's stored value at a row `p` and a column `q` of its `[1024, 1024]` block.

  From the block `x` of 1024 points, the 1024 centres `c`, the row `nb` of negated widths and the row `cb` of negated
  widths times squared centre lengths, the body stores
      `exp ((nb q · ∑ l, x (p, l)² + cb q) − (2 · nb q) · ∑ l, x (p, l) · c (q, l))`:
  the sum of squares is the lane sum of the squared block kept as a column and repeated along the columns, the
  inner products are the matrix product of the block with the centres contracted over their second axes into a zero
  accumulator, and the two rows are repeated down the rows.
-/
import proofs.«154073_j44521630990797_2_alg».proof.Proof.Gen.KernelIdeal.Skeleton
import proofs.«154073_j44521630990797_2_alg».proof.Proof.Spec
import proofs.«154073_j44521630990797_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.Rbf

open Idealize.ShloMosaic Idealize.ShloMosaic.ValueIdx Cert.KernelIdeal Cert.KernelIdeal.Gen Cert.LibLayout

/-- The product's left operand is read at the row of the result's index. -/
theorem lhs_row (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- The product's right operand is read at the row named by the column of the result's index. -/
theorem rhs_row (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- The matrix product of two `[1024, 256]` arrays contracted over their second axes, into the zero accumulator, is at
    `(p, q)` the inner product of row `p` of the first with row `q` of the second. -/
theorem matmul_rows_apply (l r : FVec Ideal S1024x256 .bf16) (p q : Fin 1024) :
    matmul dot_S1024x256_S1024x256_S1024x1024_1_1_0_0_n_n none l r (constant (F := Ideal) S1024x1024 .f32 0x00000000#32) (ix2 p q)
      = ∑ k : Fin 256, l (ix2 p k) * r (ix2 q k) := by
  refine (Ideal.matmul_constant_zero_apply dot_S1024x256_S1024x256_S1024x1024_1_1_0_0_n_n none l r (ix2 p q)).trans ?_
  refine (Equiv.sum_comp (contrEquiv1 dot_S1024x256_S1024x256_S1024x1024_1_1_0_0_n_n 256 rfl rfl).symm _).symm.trans ?_
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_row _ _
    | ⟨1, _⟩ => exact (dot_S1024x256_S1024x256_S1024x1024_1_1_0_0_n_n.lhsIdx_val_of_single rfl _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_row _ _
    | ⟨1, _⟩ => exact (dot_S1024x256_S1024x256_S1024x1024_1_1_0_0_n_n.rhsIdx_val_of_single rfl _ _).trans hk)
  rw [el, er]

/-- The lane sum of the squared block, kept as a column, is at `(p, 0)` the sum of the squares of row `p`. -/
theorem row_sq_apply (x : FVec Ideal S1024x256 .f32) (hφ : FKind.Formats .f32)
    (hacc : (0x00000000#32 : BitVec 32) = 0x00000000#32) (p : Fin 1024) (u : Fin 1) :
    shapeCast S1024x1 (multiReduction (F := Ideal) (φ := .f32) .add [1] S1024 (mulf x x) 0x00000000#32
        reduces_S1024x256_S1024 hφ hacc) shapeCasts_S1024_S1024x1 (ix2 p u)
      = ∑ l : Fin 256, x (ix2 p l) * x (ix2 p l) :=
  (shapeCast_a_a1_apply _ _ p u).trans (lane_sum_apply (mulf x x) 0x00000000#32 reduces_S1024x256_S1024 hφ hacc p)

/-- The body's stored value at `(p, q)`. -/
theorem payload_apply (x : Vec Ideal S1024x256 .f32) (c : Vec Ideal S1024x256 .bf16) (nb cb : Vec Ideal S1x1024 .f32)
    (p q : Fin 1024) :
    k0_pay1 (F := Ideal) x c nb cb (ix2 p q)
      = Ideal.exp ((nb (ix2 (0 : Fin 1) q) * (∑ l : Fin 256, x (ix2 p l) * x (ix2 p l)) + cb (ix2 (0 : Fin 1) q))
          - (two * nb (ix2 (0 : Fin 1) q)) * ∑ l : Fin 256, x (ix2 p l) * c (ix2 q l)) := by
  unfold k0_pay1
  dsimp only
  simp only [shapeCast_self]
  show Ideal.exp ((broadcastTo S1024x1024 nb broadcasts_S1x1024_S1024x1024 (ix2 p q)
        * broadcastTo S1024x1024 (shapeCast S1024x1 (multiReduction (F := Ideal) (φ := .f32) .add [1] S1024 (mulf x x) 0x00000000#32
            reduces_S1024x256_S1024 _ _) shapeCasts_S1024_S1024x1) broadcasts_S1024x1_S1024x1024 (ix2 p q)
        + broadcastTo S1024x1024 cb broadcasts_S1x1024_S1024x1024 (ix2 p q))
      - broadcastTo S1024x1024 (mulf (broadcast S1x1024 (FloatOps.ofBits (F := Ideal) .f32 0x40000000#32)) nb)
            broadcasts_S1x1024_S1024x1024 (ix2 p q)
        * matmul (F := Ideal) dot_S1024x256_S1024x256_S1024x1024_1_1_0_0_n_n none (truncf .bf16 x bitsLt_bf16_f32) c
            (constant (F := Ideal) S1024x1024 .f32 0x00000000#32) (ix2 p q)) = _
  rw [broadcastTo_1b_ab_apply, broadcastTo_a1_ab_apply, row_sq_apply,
    broadcastTo_1b_ab_apply, broadcastTo_1b_ab_apply, matmul_rows_apply]
  rfl

end Cert.Rbf

end
-- ==== Proof.BlockValue.lean ====
/-
  One entry of the kernel's block is one entry of the layer, in its distributed form.

  If the block `x` holds, in its row `p`, row `b` of the points `X`; the centres block holds the centres `C`; and the
  two rows hold `-β q` and `-β q · ‖C q‖²` at column `q`, then the stored value at `(p, q)` is
  `exp ((-β q · ‖X b‖² + -β q · ‖C q‖²) − (2 · -β q) · ⟨X b, C q⟩)`. The body's sum of squares starts from nothing and
  the layer's from the zero float, which adds nothing.
-/
import proofs.«154073_j44521630990797_2_alg».proof.Proof.KerPayload

noncomputable section

namespace Cert.Rbf

open Idealize.ShloMosaic Idealize.ShloMosaic.ValueIdx Cert.KernelIdeal Cert.KernelIdeal.Gen

/-- The squared length of a row is the plain sum of its squares: the zero float it starts from adds nothing. -/
theorem sqLen_eq {n d : ℕ} (A : (⟨2, ![n, d]⟩ : Shape).Idx → EReal) (r : Fin n) :
    sqLen A r = ∑ l : Fin d, A (ix2 r l) * A (ix2 r l) := by
  unfold sqLen
  rw [Ideal.ofBits_zero_f32, zero_add]

/-- The stored value at `(p, q)` of a block whose inputs are the layer's arrays read at row `b`. -/
theorem block_value (x : Vec Ideal S1024x256 .f32) (cc : Vec Ideal S1024x256 .bf16) (nb cb : Vec Ideal S1x1024 .f32)
    (X : (⟨2, ![16384, 256]⟩ : Shape).Idx → EReal) (C : (⟨2, ![1024, 256]⟩ : Shape).Idx → EReal)
    (B : (⟨1, ![1024]⟩ : Shape).Idx → EReal) (p q : Fin 1024) (b : Fin 16384)
    (hx : ∀ l : Fin 256, x (ix2 p l) = X (ix2 b l))
    (hc : ∀ (k : Fin 1024) (l : Fin 256), cc (ix2 k l) = C (ix2 k l))
    (hnb : nb (ix2 (0 : Fin 1) q) = -(B (ix1 q)))
    (hcb : cb (ix2 (0 : Fin 1) q) = -(B (ix1 q)) * sqLen C q) :
    k0_pay1 (F := Ideal) x cc nb cb (ix2 p q) = distributed X C B b q := by
  rw [payload_apply, hnb, hcb]
  unfold distributed inner
  rw [sqLen_eq X b]
  simp only [hx, hc]

end Cert.Rbf

end
-- ==== Proof.KernelValue.lean ====
/-
  The kernel's result array is the layer, in its distributed form, of the arrays it is launched with.

  The grid has 16 points; point `t` reads rows `1024 t … 1024 t + 1023` of the points, the whole of the centres and
  of the two rows the host prepared, and writes rows `1024 t … 1024 t + 1023` of the result. So entry `(p, q)` of
  the block point `t` writes is entry `(1024 t + p, q)` of the layer, and since every row `r` of the result lies in the
  block of point `r / 1024`, the sixteen blocks fill the array.
-/
import proofs.«154073_j44521630990797_2_alg».proof.Proof.Gen.KernelIdeal.Value
import proofs.«154073_j44521630990797_2_alg».proof.Proof.HostPrefix
import proofs.«154073_j44521630990797_2_alg».proof.Proof.BlockValue

noncomputable section

namespace Cert.Rbf

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The offsets of a whole-block access are all zero. -/
theorem zero_offsets : (![0, 0] : Fin 2 → Nat) = fun _ => 0 := funext fun a => by fin_cases a <;> rfl

/-- The layer of the launch arrays, entry by entry, in its distributed form. -/
def layerOut (c : Dev nD) : S16384x1024.Idx → EReal :=
  fun i => distributed (argX m c) (argC m c) (argB m c) (i 0) (i 1)

/-- The block indices over the grid: the points' and the result's blocks move down the rows with the point, the
    three resident operands stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is its block of the layer. -/
theorem flushed_eq (c : Dev nD) (t : Fin cfg0.N) :
    (dats m 0 c).flushed 4 t = ((cfg0.win 4).blk t).view.read (Elt Ideal) (layerOut m c) := by
  rw [Cert.KernelIdeal.Value.flushed4]
  unfold out0_4
  rw [View.canon_unit_zero zero_offsets]
  simp only [View.ld_unit_zero (S := S1024x256) zero_offsets, View.ld_unit_zero (S := S1x1024) zero_offsets]
  obtain ⟨e00, e01, e10, e11, e20, e21, e30, e31, e40, e41⟩ := block_indices t
  have ht : t.val < 16 := lt_of_lt_of_eq t.isLt (N_0 : cfg0.N = 16)
  funext j
  obtain ⟨p, q, rfl⟩ : ∃ (p q : Fin 1024), j = ix2 p q := ⟨j 0, j 1, eq_ix2 j⟩
  have hp : p.val < 1024 := p.isLt
  have hq : q.val < 1024 := q.isLt
  have hemb : ((cfg0.win 4).blk t).view.emb (ix2 p q) = ix2 (⟨t.val * 1024 + p.val, by omega⟩ : Fin 16384) q :=
    funext fun a => Fin.ext (by
      match a with
      | ⟨0, _⟩ => show win0_4.index t (0 : Fin 2) * 1024 + 1 * p.val = t.val * 1024 + p.val; rw [e40]; omega
      | ⟨1, _⟩ => show win0_4.index t (1 : Fin 2) * 1024 + 1 * q.val = q.val; rw [e41]; omega)
  show k0_pay1 (F := Ideal) (iblk m c 0 t) (iblk m c 1 t) (iblk m c 2 t) (iblk m c 3 t) (ix2 p q)
      = layerOut m c (((cfg0.win 4).blk t).view.emb (ix2 p q))
  rw [hemb]
  refine block_value (iblk m c 0 t) (iblk m c 1 t) (iblk m c 2 t) (iblk m c 3 t) (argX m c) (argC m c) (argB m c)
    p q ⟨t.val * 1024 + p.val, by omega⟩ (fun l => ?_) (fun k l => ?_) ?_ ?_
  · show V m c main_arg0 (((cfg0.win 0).blk t).view.emb (ix2 p l)) = argX m c (ix2 ⟨t.val * 1024 + p.val, by omega⟩ l)
    rw [V_main_arg0]
    refine congrArg (argX m c) (funext fun a => Fin.ext ?_)
    have hl : l.val < 256 := l.isLt
    match a with
    | ⟨0, _⟩ => show win0_0.index t (0 : Fin 2) * 1024 + 1 * p.val = t.val * 1024 + p.val; rw [e00]; omega
    | ⟨1, _⟩ => show win0_0.index t (1 : Fin 2) * 256 + 1 * l.val = l.val; rw [e01]; omega
  · show (V m c main_v0 : S1024x256.Idx → EReal) (((cfg0.win 1).blk t).view.emb (ix2 k l)) = argC m c (ix2 k l)
    rw [entry_centres]
    refine congrArg (argC m c) (funext fun a => Fin.ext ?_)
    match a with
    | ⟨0, _⟩ => show win0_1.index t (0 : Fin 2) * 1024 + 1 * k.val = k.val; rw [e10]; omega
    | ⟨1, _⟩ => show win0_1.index t (1 : Fin 2) * 256 + 1 * l.val = l.val; rw [e11]; omega
  · show (V m c main_v4 : S1x1024.Idx → EReal) (((cfg0.win 2).blk t).view.emb (ix2 (0 : Fin 1) q)) = _
    have he : ((cfg0.win 2).blk t).view.emb (ix2 (0 : Fin 1) q) = ix2 (0 : Fin 1) q := funext fun a => Fin.ext (by
      match a with
      | ⟨0, _⟩ => show win0_2.index t (0 : Fin 2) * 1 + 1 * 0 = 0; rw [e20]
      | ⟨1, _⟩ => show win0_2.index t (1 : Fin 2) * 1024 + 1 * q.val = q.val; rw [e21]; omega)
    rw [he]
    exact entry_negwidth m c 0 q
  · show (V m c main_v6 : S1x1024.Idx → EReal) (((cfg0.win 3).blk t).view.emb (ix2 (0 : Fin 1) q)) = _
    have he : ((cfg0.win 3).blk t).view.emb (ix2 (0 : Fin 1) q) = ix2 (0 : Fin 1) q := funext fun a => Fin.ext (by
      match a with
      | ⟨0, _⟩ => show win0_3.index t (0 : Fin 2) * 1 + 1 * 0 = 0; rw [e30]
      | ⟨1, _⟩ => show win0_3.index t (1 : Fin 2) * 1024 + 1 * q.val = q.val; rw [e31]; omega)
    rw [he]
    exact entry_cb m c 0 q

/-- An index of the result is in point `t`'s block iff each coordinate is in the block's range on its axis. -/
theorem mem_block (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v7).slice (win0_4.rect t)).set ↔ _
  rw [View.set_slice_whole, Rect.mem_set_unit]
  exact Iff.rfl

/-- Every index of the result lies in the block of the point its row falls under. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ : ∃ t : Fin cfg0.N, t.val = (i 0).val / 1024 :=
    ⟨⟨(i 0).val / 1024, by rw [show cfg0.N = 16 from N_0]; omega⟩, rfl⟩
  obtain ⟨-, -, -, -, -, -, -, -, e40, e41⟩ := block_indices t
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    rw [e40, ht]; omega
  | ⟨1, _⟩ =>
    show win0_4.index t (1 : Fin 2) * 1024 ≤ (i 1).val ∧ (i 1).val < win0_4.index t (1 : Fin 2) * 1024 + 1024
    rw [e41]; omega

/-- The result array after the run is the layer of the launch arrays. -/
theorem final (c : Dev nD) : (dats m 0 c).arrAt 4 cfg0.N = layerOut m c :=
  (dats m 0 c).arrAt_eq_of_cover 4 (layerOut m c) (fun t _ => flushed_eq m c t) covered

/-- The kernel's run: it ends with the result array at the layer of the launch arrays and the arguments unchanged. -/
theorem kernel_run : θ_run defs (onTc (τ := τ) (main (F := Ideal))) ⟨m, fun _ => 0, ρ⟩ fun r => ∀ c : Dev nD,
      r.2.mem ((c : Thread nD τ).loc main_v7) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Rbf

end
-- ==== Proof.Finite.lean ====
/-
  The precondition says every entry of the three arrays is a real number.

  It is the conjunction of three `all`s, one per array, of the entrywise test `|x| < +∞`. An extended real whose
  absolute value `max x (-x)` is below `+∞` is neither infinity, hence a real number.
-/
import proofs.«154073_j44521630990797_2_alg».proof.Pre_finite_inputs
import proofs.«154073_j44521630990797_2_alg».proof.Proof.Spec
import Idealize.ShloMosaic.Lib.ReduceAll
import Idealize.ShloMosaic.Lib.Affine
import Idealize.ShloMosaic.Lib.ValueIdx

noncomputable section

namespace Cert.Rbf

open Idealize.ShloMosaic

/-- The scalar shape has one index. -/
instance : Subsingleton Cert.Pre_finite_inputs.S_.Idx := ⟨fun a b => funext fun d => d.elim0⟩

/-- The float `+∞` is the top of the extended reals. -/
theorem inf_word : Ideal.ofBits .f32 0x7F800000#32 = ⊤ := by
  simp [Ideal.ofBits, Ideal.ieee]

/-- An extended real whose absolute value tests below the float `+∞` is a real number. -/
theorem isReal_of_test (x : EReal)
    (h : Ideal.cmp .olt (max x (-x)) (Ideal.ofBits .f32 0x7F800000#32) = 1#1) : IsReal x := by
  rw [inf_word] at h
  have h' : max x (-x) < ⊤ := by
    by_contra hn
    simp [Ideal.cmp, hn] at h
  induction x using EReal.rec with
  | bot => simp at h'
  | coe r => exact ⟨r, rfl⟩
  | top => simp at h'

variable [Cert.Pre_finite_inputs.Facts]

/-- Under the precondition every entry of the points, of the centres and of the widths is a real number. -/
theorem real_of_pre (X : FVec Ideal Cert.Pre_finite_inputs.S16384x256 .f32) (C : FVec Ideal Cert.Pre_finite_inputs.S1024x256 .f32)
    (B : FVec Ideal Cert.Pre_finite_inputs.S1024 .f32)
    (h : Cert.Pre_finite_inputs.fn (F := Ideal) X C B = fun _ => 1#1) :
    (∀ i, IsReal (X i)) ∧ (∀ i, IsReal (C i)) ∧ (∀ i, IsReal (B i)) := by
  have h0 := congrFun h ValueIdx.ix0
  dsimp only [Cert.Pre_finite_inputs.fn] at h0
  obtain ⟨h01, hB⟩ := IntOp.andi_eq_one.1 h0
  obtain ⟨hX, hC⟩ := IntOp.andi_eq_one.1 h01
  exact ⟨fun i => isReal_of_test _ (Host.reduce_andi_all _ _ _ _ _ hX i),
    fun i => isReal_of_test _ (Host.reduce_andi_all _ _ _ _ _ hC i),
    fun i => isReal_of_test _ (Host.reduce_andi_all _ _ _ _ _ hB i)⟩

end Cert.Rbf

end
-- ==== Proof.lean ====
/-
  The radial-basis layer `out (b, q) = exp (-β q · ‖x b − c q‖²)`, the squared distance expanded as
  `‖x b‖² + ‖c q‖² − 2 ⟨x b, c q⟩`: a kernel against its reference, over the extended reals.

  The reference multiplies the expanded distance by `-β q` once (the factored form). The kernel has the host fold
  `-β q` into the squared centre lengths beforehand and, in its body, multiplies the squared point length and twice
  the inner product by `-β q` separately (the distributed form); its inner products are a matrix product of bf16
  copies, which on the extended reals are the numbers themselves, and its grid of 16 points fills the result 1024
  rows at a time. The two forms agree by distributivity, which on the extended reals needs the three arrays to hold
  real numbers: that is what the precondition says.

  Modules: `Spec` (the two forms and the law), `RefValue` (the reference is the factored form), `KerPayload` and
  `BlockValue` (an entry of the kernel's block is an entry of the distributed form), `HostPrefix` (what the host
  operations before the kernel leave), `KernelValue` (the blocks fill the result), `Finite` (the precondition read).
-/
import proofs.«154073_j44521630990797_2_alg».proof.Defs
import proofs.«154073_j44521630990797_2_alg».proof.Proof.Gen.Kernel
import proofs.«154073_j44521630990797_2_alg».proof.Proof.Gen.Kernel.Skeleton
import proofs.«154073_j44521630990797_2_alg».proof.Proof.Gen.Kernel.Launch
import proofs.«154073_j44521630990797_2_alg».proof.Proof.Gen.Kernel.Points
import proofs.«154073_j44521630990797_2_alg».proof.Proof.Gen.Kernel.Frame
import proofs.«154073_j44521630990797_2_alg».proof.Proof.Gen.KernelIdeal
import proofs.«154073_j44521630990797_2_alg».proof.Proof.Gen.KernelIdeal.Skeleton
import proofs.«154073_j44521630990797_2_alg».proof.Proof.Gen.KernelIdeal.Launch
import proofs.«154073_j44521630990797_2_alg».proof.Proof.Gen.KernelIdeal.Points
import proofs.«154073_j44521630990797_2_alg».proof.Proof.Gen.KernelIdeal.Frame
import proofs.«154073_j44521630990797_2_alg».proof.Proof.Gen.ReferenceIdeal
import proofs.«154073_j44521630990797_2_alg».proof.Proof.Gen.Pre_finite_inputs
import proofs.«154073_j44521630990797_2_alg».proof.Proof.Gen.KernelIdeal.Value
import proofs.«154073_j44521630990797_2_alg».proof.Proof.Gen.ReferenceIdeal.Run
import proofs.«154073_j44521630990797_2_alg».proof.Proof.Gen.ReferenceIdeal.Read
import proofs.«154073_j44521630990797_2_alg».proof.Proof.Spec
import proofs.«154073_j44521630990797_2_alg».proof.Proof.RefValue
import proofs.«154073_j44521630990797_2_alg».proof.Proof.KernelValue
import proofs.«154073_j44521630990797_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories agreeing on the three arrays, the kernel ends with the distributed form of the layer and the
    reference with the factored form; the arrays hold real numbers by the precondition, so the two forms are equal
    entry by entry. -/
theorem algebraic : Cert.algebraic_KernelIdeal_ReferenceIdeal := by
  intro m ρ m' ρ' hpre hagree
  refine ⟨fun c => Cert.Rbf.layerOut m c, Cert.Rbf.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.reference_eq, (hagree c).1, (hagree c).2.1, (hagree c).2.2]
  obtain ⟨hX, hC, hB⟩ := Cert.Rbf.real_of_pre _ _ _ (hpre c)
  funext i
  exact (Cert.Rbf.distributed_eq_factored _ _ _ hX hC hB (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
